-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x4096 : Shape := ⟨3, ![4, 64, 4096]⟩
abbrev S_ : Shape := ⟨0, ![]⟩
abbrev S4x4096 : Shape := ⟨2, ![4, 4096]⟩

class Facts : Prop where
  bcast_S_S4x64x4096 : S_.BroadcastsInDim S4x64x4096 (![] : Fin 0 → Fin S4x64x4096.rank)
  reducesTo_S4x64x4096_S_d0_1_2 : S4x64x4096.ReducesTo [0, 1, 2] S_
  h_S_ : 0 < S_.numel
  reducesTo_S4x64x4096_S4x4096_d1 : S4x64x4096.ReducesTo [1] S4x4096
  bcast_S_S4x4096 : S_.BroadcastsInDim S4x4096 (![] : Fin 0 → Fin S4x4096.rank)
  reducesTo_S4x4096_S_d0_1 : S4x4096.ReducesTo [0, 1] S_

variable [Facts]

def fn {F : FTy → Type} [FloatOps F] (main_arg0 : FVec F S4x64x4096 .f32) : IVec S_ 1 :=
  let main_v0 : FVec F S4x64x4096 .f32 := Host.absf main_arg0
  let main_cst : FVec F S_ .f32 := constant S_ .f32 0x7F800000#32
  let main_v1 : FVec F S4x64x4096 .f32 := broadcastInDim S4x64x4096 ![] bcast_S_S4x64x4096 main_cst
  let main_v2 : IVec S4x64x4096 1 := cmpf .olt main_v0 main_v1
  let main_c : IVec S_ 1 := constantI S_ 1 1#1
  let main_v3 : IVec S_ 1 := (fun x v => Host.reduce IntOp.andi x v reducesTo_S4x64x4096_S_d0_1_2 h_S_) main_v2 main_c
  let main_v4 : FVec F S4x64x4096 .f32 := mulf main_arg0 main_arg0
  let main_cst_0 : FVec F S_ .f32 := constant S_ .f32 0x00000000#32
  let main_v5 : FVec F S4x4096 .f32 := (fun x v => Host.reduceAdd x v reducesTo_S4x64x4096_S4x4096_d1 h_S_) main_v4 main_cst_0
  let main_cst_1 : FVec F S_ .f32 := constant S_ .f32 0x00000000#32
  let main_v6 : FVec F S4x4096 .f32 := broadcastInDim S4x4096 ![] bcast_S_S4x4096 main_cst_1
  let main_v7 : IVec S4x4096 1 := cmpf .ogt main_v5 main_v6
  let main_c_2 : IVec S_ 1 := constantI S_ 1 1#1
  let main_v8 : IVec S_ 1 := (fun x v => Host.reduce IntOp.andi x v reducesTo_S4x4096_S_d0_1 h_S_) main_v7 main_c_2
  let main_v9 : IVec S_ 1 := andi main_v3 main_v8
  main_v9
-- ==== Kernel.lean ====
abbrev S4x64x4096 : Shape := ⟨3, ![4, 64, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S1x64x2048 : Shape := ⟨3, ![1, 64, 2048]⟩
abbrev S1x64x1024 : Shape := ⟨3, ![1, 64, 1024]⟩
abbrev S1x2048x1 : Shape := ⟨3, ![1, 2048, 1]⟩
abbrev S1x1x1024 : Shape := ⟨3, ![1, 1, 1024]⟩
abbrev S1x2048x1024 : Shape := ⟨3, ![1, 2048, 1024]⟩
abbrev S64x2048 : Shape := ⟨2, ![64, 2048]⟩
abbrev S64x1024 : Shape := ⟨2, ![64, 1024]⟩
abbrev S2048x1024 : Shape := ⟨2, ![2048, 1024]⟩
abbrev S2048x1 : Shape := ⟨2, ![2048, 1]⟩
abbrev S1x1024 : Shape := ⟨2, ![1, 1024]⟩

abbrev nBuf : Space → Nat
  | .hbm => 8
  | .vmem => 10
  | .smem => 0
  | _ => 0

abbrev bufTy : (tb : Table) → Fin (tcTables nBuf tb) → BufTy
  | .hbm, ⟨0, _⟩ => ⟨S4x64x4096, .f32⟩
  | .hbm, ⟨1, _⟩ => ⟨S4x64x4096, .f32⟩
  | .hbm, ⟨2, _⟩ => ⟨S_, .f32⟩
  | .hbm, ⟨3, _⟩ => ⟨S4x4096, .f32⟩
  | .hbm, ⟨4, _⟩ => ⟨S4x4096, .f32⟩
  | .hbm, ⟨5, _⟩ => ⟨S4x4096x1, .f32⟩
  | .hbm, ⟨6, _⟩ => ⟨S4x1x4096, .f32⟩
  | .hbm, ⟨7, _⟩ => ⟨S4x4096x4096, .f32⟩
  | .local _ .vmem, ⟨0, _⟩ => ⟨S1x64x2048, .f32⟩
  | .local _ .vmem, ⟨1, _⟩ => ⟨S1x64x2048, .f32⟩
  | .local _ .vmem, ⟨2, _⟩ => ⟨S1x64x1024, .f32⟩
  | .local _ .vmem, ⟨3, _⟩ => ⟨S1x64x1024, .f32⟩
  | .local _ .vmem, ⟨4, _⟩ => ⟨S1x2048x1, .f32⟩
  | .local _ .vmem, ⟨5, _⟩ => ⟨S1x2048x1, .f32⟩
  | .local _ .vmem, ⟨6, _⟩ => ⟨S1x1x1024, .f32⟩
  | .local _ .vmem, ⟨7, _⟩ => ⟨S1x1x1024, .f32⟩
  | .local _ .vmem, ⟨8, _⟩ => ⟨S1x2048x1024, .f32⟩
  | .local _ .vmem, ⟨9, _⟩ => ⟨S1x2048x1024, .f32⟩
  | _, _ => ⟨S4x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  reducesTo_S4x64x4096_S4x4096_d1 : S4x64x4096.ReducesTo [1] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  bitsLt_bf16_f32 : FTy.bits .bf16 < FTy.bits .f32
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S2048x1_S2048x1024 : S2048x1.Broadcasts S2048x1024
  broadcasts_S1x1024_S2048x1024 : S1x1024.Broadcasts S2048x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  shapeCasts_S2048x1024_S1x2048x1024 : S2048x1024.ShapeCasts S1x2048x1024
  dot_S64x2048_S64x1024_S2048x1024_0_0_1_1_n_n_wf : DotDims.WF S64x2048 S64x1024 S2048x1024 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S4x64x4096.size a
  hwx0_0 : ∀ i : grid0.Coords, EltTy.bits .f32 = 32 ∨ (Rect.block (s := S4x64x4096) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1024.size a ≤ S4x64x4096.size a
  hwx0_1 : ∀ i : grid0.Coords, EltTy.bits .f32 = 32 ∨ (Rect.block (s := S4x64x4096) S1x64x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S4x4096x1.size a
  hwx0_2 : ∀ i : grid0.Coords, EltTy.bits .f32 = 32 ∨ (Rect.block (s := S4x4096x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1024.size a ≤ S4x1x4096.size a
  hwx0_3 : ∀ i : grid0.Coords, EltTy.bits .f32 = 32 ∨ (Rect.block (s := S4x1x4096) S1x1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2048x1024.size a ≤ S4x4096x4096.size a
  hwx0_4 : ∀ i : grid0.Coords, EltTy.bits .f32 = 32 ∨ (Rect.block (s := S4x4096x4096) S1x2048x1024.size (cc0_transform_4 i) (hinb0_4 i)).WholeWords (EltTy.packing .f32)

variable [Facts₀]

def dot_S64x2048_S64x1024_S2048x1024_0_0_1_1_n_n : DotDims S64x2048 S64x1024 S2048x1024 where
  lhsContracting := [0]
  rhsContracting := [0]
  lhsNonContracting := [1]
  rhsNonContracting := [1]
  lhsBatch := []
  rhsBatch := []
  wf := dot_S64x2048_S64x1024_S2048x1024_0_0_1_1_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x64x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x2048x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x64x4096 : Shape := ⟨3, ![4, 64, 4096]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4x64x4096, .f32⟩
  | .hbm, ⟨1, _⟩ => ⟨S4x4096x4096, .f32⟩
  | .hbm, ⟨2, _⟩ => ⟨S4x64x4096, .f32⟩
  | .hbm, ⟨3, _⟩ => ⟨S_, .f32⟩
  | .hbm, ⟨4, _⟩ => ⟨S4x4096, .f32⟩
  | .hbm, ⟨5, _⟩ => ⟨S4x4096, .f32⟩
  | .hbm, ⟨6, _⟩ => ⟨S4x4096x1, .f32⟩
  | .hbm, ⟨7, _⟩ => ⟨S4x1x4096, .f32⟩
  | .hbm, ⟨8, _⟩ => ⟨S4x4096x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | _, _ => ⟨S4x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]

class Facts₀ : Prop where
  reducesTo_S4x64x4096_S4x4096_d1 : S4x64x4096.ReducesTo [1] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  dot_S4x64x4096_S4x64x4096_S4x4096x4096_1_1_2_2_0_0_wf : DotDims.WF S4x64x4096 S4x64x4096 S4x4096x4096 [1] [1] [2] [2] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf

class Facts : Prop extends Facts₀ where

variable [Facts]
-- ==== Proof.KernelFrame.lean ====
/-
  The frame of the cosine-similarity program, read at any float instance: it runs to the end, faults nowhere, and leaves its argument unchanged.

  The program squares the argument x : [4, 64, 4096], sums the squares over the channel axis, takes reciprocal square
  roots, lays these out once as a column [4, 4096, 1] and once as a row [4, 1, 4096], and then runs one kernel over a
  4 × 2 × 4 grid.  At grid point (b, i, j) the kernel reads the column tile i and the column tile j of batch b of x (two
  windows onto the SAME array), the matching pieces of the column and the row of reciprocal norms, and writes the
  2048 × 1024 tile (i, j) of batch b of the result.

  Because two input windows read one array, that array is held by the pipeline as two half shares, one per window;
  the other arrays are held whole.  The body reads its four input tiles, forms one value and stores it over the whole
  output tile; the input tiles are left as they were.  The output tiles are written back at every point.  From this the
  run of the whole program follows by the launch theorem for windows that share an array; the argument, being read
  only, ends as launched.
-/
import proofs.«165633_j57638461112506_2_alg».proof.Proof.Gen.Kernel.Launch
import proofs.«165633_j57638461112506_2_alg».proof.Proof.Gen.Kernel.Skeleton
import proofs.«165633_j57638461112506_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel region -/

/-- What core `c`'s buffers hold when the kernel region is entered: the launch contents after the six host
    operations (the squares, their sums over the channel axis, the reciprocal square roots, and the two re-layings
    of these as a column and as a row). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output's buffer -/

abbrev rA : Rect S1x64x2048 := Rect.unit (s := S1x64x2048) ![0, 0, 0] S1x64x2048.size inb_S1x64x2048_S1x64x2048_0_0_0
abbrev rB : Rect S1x64x1024 := Rect.unit (s := S1x64x1024) ![0, 0, 0] S1x64x1024.size inb_S1x64x1024_S1x64x1024_0_0_0
abbrev rC : Rect S1x2048x1 := Rect.unit (s := S1x2048x1) ![0, 0, 0] S1x2048x1.size inb_S1x2048x1_S1x2048x1_0_0_0
abbrev rD : Rect S1x1x1024 := Rect.unit (s := S1x1x1024) ![0, 0, 0] S1x1x1024.size inb_S1x1x1024_S1x1x1024_0_0_0
abbrev rO : Rect S1x2048x1024 := Rect.unit (s := S1x2048x1024) ![0, 0, 0] S1x2048x1024.size inb_S1x2048x1024_S1x2048x1024_0_0_0

/-- The output window's buffer after the body: its one whole store, of the body's value of the four input blocks. -/
def out4 (x0 : Vec F S1x64x2048 .f32) (x1 : Vec F S1x64x1024 .f32) (x2 : Vec F S1x2048x1 .f32) (x3 : Vec F S1x1x1024 .f32) : Vec F S1x2048x1024 .f32 :=
  View.canon [⟨rO, k0_pay1 (View.ld x0 rA) (View.ld x1 rB) (View.ld x2 rC) (View.ld x3 rD)⟩]

/-- The one store covers the buffer. -/
theorem cover4 (p0 : Vec F S1x2048x1024 .f32) (y : S1x2048x1024.Idx) :
    ∃ pc ∈ ([⟨rO, p0⟩] : List (View.Piece (Elt F) S1x2048x1024 .f32)), y ∈ pc.1.set :=
  View.cover_of_tiled [⟨rO, p0⟩] S1x2048x1024.size (by rfl) y

set_option maxHeartbeats 1000000 in
/-- The body on whole staging memrefs, the inputs' at contents `x0 … x3` and the output's at anything, runs to the end
    leaving the inputs' as they were and the output's at `out4` of them. -/
theorem sound_kernel (c : Dev nD) (E : Set ℕ) (i : grid0.Coords)
    (arg3 : Memref sig .tc .vmem S1x64x2048 .f32) (harg3 : arg3.IsWhole) (arg4 : Memref sig .tc .vmem S1x64x1024 .f32) (harg4 : arg4.IsWhole)
    (arg5 : Memref sig .tc .vmem S1x2048x1 .f32) (harg5 : arg5.IsWhole) (arg6 : Memref sig .tc .vmem S1x1x1024 .f32) (harg6 : arg6.IsWhole)
    (arg7 : Memref sig .tc .vmem S1x2048x1024 .f32) (harg7 : arg7.IsWhole)
    (x0 : Vec F S1x64x2048 .f32) (x1 : Vec F S1x64x1024 .f32) (x2 : Vec F S1x2048x1 .f32) (x3 : Vec F S1x1x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out4 x0 x1 x2 x3)) -∗ K ⟨⟩))
      ⊢ wp frame (wpE (defs₀ (F := F)) Variants.none c none) E (cc0__cos_attn_kernel i arg3 harg3 arg4 harg4 arg5 harg5 arg6 harg6 arg7 harg7) K := by
  simp only [cc0__cos_attn_kernel_eq_skeleton]; unfold cc0__cos_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The proof data of the pipeline -/

/-- On core `c`: the arrays as the region finds them; after the body at point `t` each input's buffer still at its
    block and the output's at `out4` of the input blocks; nothing carried between points; nothing owed.  The argument
    array is read through two windows (the row tile and the column tile of the Gram matrix): each holds one half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

/-- An input window's current buffer holds its block at every point, whether it was fetched there or not (unfetched,
    the block index has not moved since the last fetch). -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's run applies; the core's `owes` passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The launch -/

/-- The distinct buffers behind the five windows' arrays. -/
theorem arrRefs_eq : (Finset.univ.image (Pipeline.arrRef spec0) : Finset (Ref sig .tc)) = [main_arg0, main_v3, main_v4, main_v5].toFinset := by decide

theorem arrBufs_chain {M : Type} [URA M] (Φ : Ref sig .tc → sProp M) :
    bigSep (Finset.univ.image (Pipeline.arrRef spec0)) Φ = iprop(Φ main_arg0 ∗ Φ main_v3 ∗ Φ main_v4 ∗ Φ main_v5) :=
  bigSep_eq_bigSepL_of_eq [main_arg0, main_v3, main_v4, main_v5] arrRefs_eq (by decide) Φ

/-- The buffers behind the windows' arrays, each whole at the region-entry contents, make the pipeline's arrays: the
    argument array, read through two windows, is split into its two halves; the column and row of reciprocal norms and
    the result array go to their one window each, whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrBufs_chain, bigSep_W0]
  rw [(arr_whole0 0).set_eq_univ, (arr_whole0 2).set_eq_univ, (arr_whole0 3).set_eq_univ, (arr_whole0 4).set_eq_univ]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  iintro ⟨Ha, H3, H4, H5⟩
  ihave Hs := (pointsTo_share (PosShare.mem_left_op_right fullShare)).1 $$ Ha
  icases Hs with ⟨Hl, Hr⟩
  isplitl [Hl]; · iexact Hl
  isplitl [Hr]; · iexact Hr
  isplitl [H3]; · iexact H3
  isplitl [H4]; · iexact H4
  iexact H5

/-- The physical post of the run: every array of the pipeline holds what the write-backs leave. -/
def QC : PUnit × MemSt nD τ sig (Elt F) → Prop := fun r =>
  ∀ (c : Dev nD) (w : Fin cfg0.W), r.2.mem (((cfg0).spec w).arr.view.loc (c.tc : Thread nD τ)) = (dats m 0 c).arrAt w cfg0.N

set_option backward.isDefEq.respectTransparency.types false in
/-- At the compiled mesh, for any float values, from any memory with zero counters: every weakly fair execution of the
    program terminates without a fault, and in every final state each array of the pipeline holds what the write-backs
    leave in it. -/
theorem run_main : θ_run defs (onTc (τ := τ) (main (F := F))) (s₀ m ρ) (QC m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := hsplit m)
    (X := fun _ => iprop(emp)) (Y := fun _ => iprop(emp)) (Z := fun _ => iprop(emp))
    (hX := fun c => by iintro -; isplitr <;> iempintro)
    (hin := fun _ => by iintro -; iempintro)
    (hout := fun c => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The argument array is only read: after the run it holds what it held at launch. -/
theorem final_arg0 (c : Dev nD) : (dats m 0 c).arrAt 0 cfg0.N = m ((c.tc : Thread nD τ).loc main_arg0) :=
  ((dats m 0 c).arrAt_in 0 rfl _).trans ((A_eq m c 0).trans (V_main_arg0 m c))

/-- The frame: the program runs to the end, faulting nowhere, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (final_arg0 m c)) (run_main m ρ)

end Cert.Kernel.Hand

end
-- ==== Proof.KernelIdealFrame.lean ====
/-
  The frame of the cosine-similarity program, read at any float instance: it runs to the end, faults nowhere, and leaves its argument unchanged.

  The program squares the argument x : [4, 64, 4096], sums the squares over the channel axis, takes reciprocal square
  roots, lays these out once as a column [4, 4096, 1] and once as a row [4, 1, 4096], and then runs one kernel over a
  4 × 2 × 4 grid.  At grid point (b, i, j) the kernel reads the column tile i and the column tile j of batch b of x (two
  windows onto the SAME array), the matching pieces of the column and the row of reciprocal norms, and writes the
  2048 × 1024 tile (i, j) of batch b of the result.

  Because two input windows read one array, that array is held by the pipeline as two half shares, one per window;
  the other arrays are held whole.  The body reads its four input tiles, forms one value and stores it over the whole
  output tile; the input tiles are left as they were.  The output tiles are written back at every point.  From this the
  run of the whole program follows by the launch theorem for windows that share an array; the argument, being read
  only, ends as launched.
-/
import proofs.«165633_j57638461112506_2_alg».proof.Proof.Gen.KernelIdeal.Launch
import proofs.«165633_j57638461112506_2_alg».proof.Proof.Gen.KernelIdeal.Skeleton
import proofs.«165633_j57638461112506_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the kernel region -/

/-- What core `c`'s buffers hold when the kernel region is entered: the launch contents after the six host
    operations (the squares, their sums over the channel axis, the reciprocal square roots, and the two re-layings
    of these as a column and as a row). -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- The program is its host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation writes the argument array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses and what it leaves in the output's buffer -/

abbrev rA : Rect S1x64x2048 := Rect.unit (s := S1x64x2048) ![0, 0, 0] S1x64x2048.size inb_S1x64x2048_S1x64x2048_0_0_0
abbrev rB : Rect S1x64x1024 := Rect.unit (s := S1x64x1024) ![0, 0, 0] S1x64x1024.size inb_S1x64x1024_S1x64x1024_0_0_0
abbrev rC : Rect S1x2048x1 := Rect.unit (s := S1x2048x1) ![0, 0, 0] S1x2048x1.size inb_S1x2048x1_S1x2048x1_0_0_0
abbrev rD : Rect S1x1x1024 := Rect.unit (s := S1x1x1024) ![0, 0, 0] S1x1x1024.size inb_S1x1x1024_S1x1x1024_0_0_0
abbrev rO : Rect S1x2048x1024 := Rect.unit (s := S1x2048x1024) ![0, 0, 0] S1x2048x1024.size inb_S1x2048x1024_S1x2048x1024_0_0_0

/-- The output window's buffer after the body: its one whole store, of the body's value of the four input blocks. -/
def out4 (x0 : Vec F S1x64x2048 .f32) (x1 : Vec F S1x64x1024 .f32) (x2 : Vec F S1x2048x1 .f32) (x3 : Vec F S1x1x1024 .f32) : Vec F S1x2048x1024 .f32 :=
  View.canon [⟨rO, k0_pay1 (View.ld x0 rA) (View.ld x1 rB) (View.ld x2 rC) (View.ld x3 rD)⟩]

/-- The one store covers the buffer. -/
theorem cover4 (p0 : Vec F S1x2048x1024 .f32) (y : S1x2048x1024.Idx) :
    ∃ pc ∈ ([⟨rO, p0⟩] : List (View.Piece (Elt F) S1x2048x1024 .f32)), y ∈ pc.1.set :=
  View.cover_of_tiled [⟨rO, p0⟩] S1x2048x1024.size (by rfl) y

set_option maxHeartbeats 1000000 in
/-- The body on whole staging memrefs, the inputs' at contents `x0 … x3` and the output's at anything, runs to the end
    leaving the inputs' as they were and the output's at `out4` of them. -/
theorem sound_kernel (c : Dev nD) (E : Set ℕ) (i : grid0.Coords)
    (arg3 : Memref sig .tc .vmem S1x64x2048 .f32) (harg3 : arg3.IsWhole) (arg4 : Memref sig .tc .vmem S1x64x1024 .f32) (harg4 : arg4.IsWhole)
    (arg5 : Memref sig .tc .vmem S1x2048x1 .f32) (harg5 : arg5.IsWhole) (arg6 : Memref sig .tc .vmem S1x1x1024 .f32) (harg6 : arg6.IsWhole)
    (arg7 : Memref sig .tc .vmem S1x2048x1024 .f32) (harg7 : arg7.IsWhole)
    (x0 : Vec F S1x64x2048 .f32) (x1 : Vec F S1x64x1024 .f32) (x2 : Vec F S1x2048x1 .f32) (x3 : Vec F S1x1x1024 .f32) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare x3 ∗ (∃ d, owns (c : Thread nD τ) arg7 fullShare d)
        ∗ (iprop(owns (c : Thread nD τ) arg3 fullShare x0 ∗ owns (c : Thread nD τ) arg4 fullShare x1 ∗ owns (c : Thread nD τ) arg5 fullShare x2
            ∗ owns (c : Thread nD τ) arg6 fullShare x3 ∗ owns (c : Thread nD τ) arg7 fullShare (out4 x0 x1 x2 x3)) -∗ K ⟨⟩))
      ⊢ wp frame (wpE (defs₀ (F := F)) Variants.none c none) E (cc0__cos_attn_kernel i arg3 harg3 arg4 harg4 arg5 harg5 arg6 harg6 arg7 harg7) K := by
  simp only [cc0__cos_attn_kernel_eq_skeleton]; unfold cc0__cos_attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4 _)

/-! ## The proof data of the pipeline -/

/-- On core `c`: the arrays as the region finds them; after the body at point `t` each input's buffer still at its
    block and the output's at `out4` of the input blocks; nothing carried between points; nothing owed.  The argument
    array is read through two windows (the row tile and the column tile of the Gram matrix): each holds one half of it. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 (iblk m c 0 t) (iblk m c 1 t) (iblk m c 2 t) (iblk m c 3 t)
  Φ _ := iprop(emp)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) :
    (dats m 0 c).after 4 t = out4 (iblk m c 0 t) (iblk m c 1 t) (iblk m c 2 t) (iblk m c 3 t) := by dsimp only [dats]

/-- An input window's current buffer holds its block at every point, whether it was fetched there or not (unfetched,
    the block index has not moved since the last fetch). -/
theorem before0 (c : Dev nD) (t : Fin cfg0.N) (d) : (dats m 0 c).before 0 t d = iblk m c 0 t :=
  ((dats m 0 c).before_in_eq_fetched 0 rfl (fun _ => rfl) (fun _ _ _ => rfl)
      (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
      (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
      (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
      (fun t => by rw [after3]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the inputs' buffers hold their blocks, so the body's run applies; the core's `owes` passes
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The launch -/

/-- The distinct buffers behind the five windows' arrays. -/
theorem arrRefs_eq : (Finset.univ.image (Pipeline.arrRef spec0) : Finset (Ref sig .tc)) = [main_arg0, main_v3, main_v4, main_v5].toFinset := by decide

theorem arrBufs_chain {M : Type} [URA M] (Φ : Ref sig .tc → sProp M) :
    bigSep (Finset.univ.image (Pipeline.arrRef spec0)) Φ = iprop(Φ main_arg0 ∗ Φ main_v3 ∗ Φ main_v4 ∗ Φ main_v5) :=
  bigSep_eq_bigSepL_of_eq [main_arg0, main_v3, main_v4, main_v5] arrRefs_eq (by decide) Φ

/-- The buffers behind the windows' arrays, each whole at the region-entry contents, make the pipeline's arrays: the
    argument array, read through two windows, is split into its two halves; the column and row of reciprocal norms and
    the result array go to their one window each, whole. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [arrBufs_chain, bigSep_W0]
  rw [(arr_whole0 0).set_eq_univ, (arr_whole0 2).set_eq_univ, (arr_whole0 3).set_eq_univ, (arr_whole0 4).set_eq_univ]
  rw [show (dats m 0 c).share 0 = fullShare.left from rfl, show (dats m 0 c).share 1 = fullShare.right from rfl,
    show (dats m 0 c).share 2 = fullShare from rfl, show (dats m 0 c).share 3 = fullShare from rfl,
    show (dats m 0 c).share 4 = fullShare from rfl]
  iintro ⟨Ha, H3, H4, H5⟩
  ihave Hs := (pointsTo_share (PosShare.mem_left_op_right fullShare)).1 $$ Ha
  icases Hs with ⟨Hl, Hr⟩
  isplitl [Hl]; · iexact Hl
  isplitl [Hr]; · iexact Hr
  isplitl [H3]; · iexact H3
  isplitl [H4]; · iexact H4
  iexact H5

/-- The physical post of the run: every array of the pipeline holds what the write-backs leave. -/
def QC : PUnit × MemSt nD τ sig (Elt F) → Prop := fun r =>
  ∀ (c : Dev nD) (w : Fin cfg0.W), r.2.mem (((cfg0).spec w).arr.view.loc (c.tc : Thread nD τ)) = (dats m 0 c).arrAt w cfg0.N

set_option backward.isDefEq.respectTransparency.types false in
/-- At the compiled mesh, for any float values, from any memory with zero counters: every weakly fair execution of the
    program terminates without a fault, and in every final state each array of the pipeline holds what the write-backs
    leave in it. -/
theorem run_main : θ_run defs (onTc (τ := τ) (main (F := F))) (s₀ m ρ) (QC m) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := .rfl)
    (V := V m) (hmain := hmain m Variants.none)
    (hsplit := hsplit m)
    (X := fun _ => iprop(emp)) (Y := fun _ => iprop(emp)) (Z := fun _ => iprop(emp))
    (hX := fun c => by iintro -; isplitr <;> iempintro)
    (hin := fun _ => by iintro -; iempintro)
    (hout := fun c => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The argument array is only read: after the run it holds what it held at launch. -/
theorem final_arg0 (c : Dev nD) : (dats m 0 c).arrAt 0 cfg0.N = m ((c.tc : Thread nD τ).loc main_arg0) :=
  ((dats m 0 c).arrAt_in 0 rfl _).trans ((A_eq m c 0).trans (V_main_arg0 m c))

/-- The frame: the program runs to the end, faulting nowhere, and its argument array ends unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c 0).trans (final_arg0 m c)) (run_main m ρ)

end Cert.KernelIdeal.Hand

end
-- ==== Proof.Spec.lean ====
/-
  The mathematics of the cosine-similarity kernel, stated once over the extended reals and free of any program.

  The argument is an array `x` of shape [4, 64, 4096] (batch, channel, position).  For a batch `b` and positions
  `i`, `j`:
    * `dotc x b i j`  = Σ_c x[b,c,i] · x[b,c,j]        (the Gram entry of columns `i` and `j`),
    * `ssq x b n`     = Σ_c x[b,c,n] · x[b,c,n]        (the squared norm of column `n`),
    * `cosAt x b i j` = (dotc x b i j · rsqrt (ssq x b i)) · rsqrt (ssq x b j),
  and `G x` is the [4, 4096, 4096] array whose entry (b, i, j) is `cosAt x b i j`.  This is the shape in which the
  kernel computes the cosine similarity (two multiplications by reciprocal norms); the reference divides the Gram entry
  by the product of the two norms, and the two agree wherever both column norms are positive and finite.
-/
import Idealize.ShloMosaic.PureOps.Ideal
import Idealize.ShloMosaic.Lib.ValueIdx

noncomputable section

namespace Cert.CosSim

open Idealize.ShloMosaic Idealize.ShloMosaic.ValueIdx

/-- The argument's shape [4, 64, 4096] and the result's shape [4, 4096, 4096]. -/
abbrev SX : Shape := ⟨3, ![4, 64, 4096]⟩
abbrev SO : Shape := ⟨3, ![4, 4096, 4096]⟩

/-- The squared norm of column `n` of batch `b`. -/
def ssq (x : SX.Idx → EReal) (b : Fin 4) (n : Fin 4096) : EReal :=
  ∑ c : Fin 64, x (ix3 b c n) * x (ix3 b c n)

/-- The Gram entry of columns `i` and `j` of batch `b`. -/
def dotc (x : SX.Idx → EReal) (b : Fin 4) (i j : Fin 4096) : EReal :=
  ∑ c : Fin 64, x (ix3 b c i) * x (ix3 b c j)

/-- The cosine similarity of columns `i` and `j`, as the kernel forms it. -/
def cosAt (x : SX.Idx → EReal) (b : Fin 4) (i j : Fin 4096) : EReal :=
  dotc x b i j * Ideal.rsqrt (ssq x b i) * Ideal.rsqrt (ssq x b j)

/-- The whole result array. -/
def G (x : SX.Idx → EReal) : SO.Idx → EReal := fun o => cosAt x (o 0) (o 1) (o 2)

theorem G_apply (x : SX.Idx → EReal) (b : Fin 4) (i j : Fin 4096) : G x (ix3 b i j) = cosAt x b i j := rfl

end Cert.CosSim

end
-- ==== Proof.KernelIdealPayload.lean ====
/-
  What the kernel's body computes, read at one entry of the output tile.

  The body takes a [1, 64, 2048] tile `a` and a [1, 64, 1024] tile `b` of the argument, a [1, 2048, 1] column `u` and a
  [1, 1, 1024] row `v`, and stores the [1, 2048, 1024] tile whose entry (0, p, q) is
        ((Σ_k a[0,k,p] · b[0,k,q]) · u[0,p,0]) · v[0,0,q].
  The matrix product contracts the first axis of both operands (a Gram product of columns); at the ideal instance the
  narrowing of its operands to a shorter float format is the identity, and the product into a zero accumulator is the
  plain sum.  The column is broadcast along the rows' entries and the row along the columns'.
-/
import proofs.«165633_j57638461112506_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx

/-- A column [a, 1] broadcast to [a, b] reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The Gram product's operand indices at output entry j and contraction index kk: the left operand is read at row kk
    and column j 0, the right at row kk and column j 1. -/
theorem gram_lhs0 (j : S2048x1024.Idx) (kk : dot_S64x2048_S64x1024_S2048x1024_0_0_1_1_n_n.contr.Idx) :
    (dot_S64x2048_S64x1024_S2048x1024_0_0_1_1_n_n.lhsIdx j kk 0).val = (kk ⟨0, by decide⟩).val :=
  dot_S64x2048_S64x1024_S2048x1024_0_0_1_1_n_n.lhsIdx_val_of_single rfl j kk
theorem gram_lhs1 (j : S2048x1024.Idx) (kk : dot_S64x2048_S64x1024_S2048x1024_0_0_1_1_n_n.contr.Idx) :
    (dot_S64x2048_S64x1024_S2048x1024_0_0_1_1_n_n.lhsIdx j kk 1).val = (j 0).val := by
  unfold DotDims.lhsIdx
  rw [dif_neg (show ¬(1 : Fin S64x2048.rank) ∈ dot_S64x2048_S64x1024_S2048x1024_0_0_1_1_n_n.lhsBatch by decide),
    dif_pos (show (1 : Fin S64x2048.rank) ∈ dot_S64x2048_S64x1024_S2048x1024_0_0_1_1_n_n.lhsNonContracting by decide)]
  rfl
theorem gram_rhs0 (j : S2048x1024.Idx) (kk : dot_S64x2048_S64x1024_S2048x1024_0_0_1_1_n_n.contr.Idx) :
    (dot_S64x2048_S64x1024_S2048x1024_0_0_1_1_n_n.rhsIdx j kk 0).val = (kk ⟨0, by decide⟩).val :=
  dot_S64x2048_S64x1024_S2048x1024_0_0_1_1_n_n.rhsIdx_val_of_single rfl j kk
theorem gram_rhs1 (j : S2048x1024.Idx) (kk : dot_S64x2048_S64x1024_S2048x1024_0_0_1_1_n_n.contr.Idx) :
    (dot_S64x2048_S64x1024_S2048x1024_0_0_1_1_n_n.rhsIdx j kk 1).val = (j 1).val := by
  unfold DotDims.rhsIdx
  rw [dif_neg (show ¬(1 : Fin S64x1024.rank) ∈ dot_S64x2048_S64x1024_S2048x1024_0_0_1_1_n_n.rhsBatch by decide),
    dif_pos (show (1 : Fin S64x1024.rank) ∈ dot_S64x2048_S64x1024_S2048x1024_0_0_1_1_n_n.rhsNonContracting by decide)]
  rfl

/-- The Gram product of the columns of two tiles, contracting the first axis of both, into a zero accumulator: at (p, q)
    the sum over the 64 rows k of a[k,p] · b[k,q]. -/
theorem gram_apply (a : FVec Ideal S64x2048 .bf16) (b : FVec Ideal S64x1024 .bf16) (p : Fin 2048) (q : Fin 1024) :
    matmul dot_S64x2048_S64x1024_S2048x1024_0_0_1_1_n_n none a b (constant S2048x1024 .f32 0x00000000#32) (ix2 p q)
      = ∑ k : Fin 64, a (ix2 k p) * b (ix2 k q) := by
  refine (Ideal.matmul_constant_zero_apply dot_S64x2048_S64x1024_S2048x1024_0_0_1_1_n_n none a b (ix2 p q)).trans ?_
  rw [← Equiv.sum_comp (contrEquiv1 dot_S64x2048_S64x1024_S2048x1024_0_0_1_1_n_n 64 rfl rfl).symm]
  refine Finset.sum_congr rfl fun k _ => ?_
  have hk := contrEquiv1_symm_val dot_S64x2048_S64x1024_S2048x1024_0_0_1_1_n_n 64 rfl rfl k
  have el : dot_S64x2048_S64x1024_S2048x1024_0_0_1_1_n_n.lhsIdx (ix2 p q) ((contrEquiv1 dot_S64x2048_S64x1024_S2048x1024_0_0_1_1_n_n 64 rfl rfl).symm k) = ix2 k p :=
    funext fun ax => Fin.ext (by
      match ax with
      | ⟨0, _⟩ => exact (gram_lhs0 _ _).trans hk
      | ⟨1, _⟩ => exact gram_lhs1 _ _)
  have er : dot_S64x2048_S64x1024_S2048x1024_0_0_1_1_n_n.rhsIdx (ix2 p q) ((contrEquiv1 dot_S64x2048_S64x1024_S2048x1024_0_0_1_1_n_n 64 rfl rfl).symm k) = ix2 k q :=
    funext fun ax => Fin.ext (by
      match ax with
      | ⟨0, _⟩ => exact (gram_rhs0 _ _).trans hk
      | ⟨1, _⟩ => exact gram_rhs1 _ _)
  rw [el, er]

/-- The body's stored value at (0, p, q): the Gram entry of column p of the first tile and column q of the second,
    times the column's entry p, times the row's entry q. -/
theorem pay_apply (a : Vec Ideal S1x64x2048 .f32) (b : Vec Ideal S1x64x1024 .f32) (u : Vec Ideal S1x2048x1 .f32) (v : Vec Ideal S1x1x1024 .f32)
    (z : Fin 1) (p : Fin 2048) (q : Fin 1024) :
    k0_pay1 (F := Ideal) a b u v (ix3 z p q)
      = (∑ k : Fin 64, a (ix3 (0 : Fin 1) k p) * b (ix3 (0 : Fin 1) k q)) * u (ix3 (0 : Fin 1) p (0 : Fin 1)) * v (ix3 (0 : Fin 1) (0 : Fin 1) q) := by
  unfold k0_pay1
  refine (shapeCast_ab_1ab_apply _ _ z p q).trans ?_
  rw [mulf_apply, mulf_apply]
  refine congrArg₂ (· * ·) (congrArg₂ (· * ·) ?_ ?_) ?_
  · refine (gram_apply _ _ p q).trans (Finset.sum_congr rfl fun k _ => ?_)
    rw [truncf_apply, truncf_apply]
    exact congrArg₂ (· * ·) (shapeCast_1ab_ab_apply a _ k p) (shapeCast_1ab_ab_apply b _ k q)
  · exact (broadcastTo_a1_ab_apply _ _ p q).trans (shapeCast_1ab_ab_apply u _ p (0 : Fin 1))
  · exact (broadcastTo_1b_ab_apply _ _ p q).trans (shapeCast_1ab_ab_apply v _ (0 : Fin 1) q)

end Cert.KernelIdeal.HandValue

end
-- ==== Proof.KernelIdealValue.lean ====
/-
  The result of the cosine-similarity program at the ideal instance: the array `G` of the specification.

  At region entry the column and the row of reciprocal norms hold, at (b, i, 0) and (b, 0, j), the reciprocal square
  root of the squared norm of column i, respectively j, of batch b (the host's sum of squares starts from zero).  At grid
  point t = (b, I, J) the four input tiles are: columns 2048·I … of batch b, columns 1024·J … of batch b, rows 2048·I …
  of the column of reciprocal norms and entries 1024·J … of the row.  So the body's value at (0, p, q) is the entry
  (b, 2048·I + p, 1024·J + q) of `G`: the tile written back at t is the tile of `G` the output window places there.  The
  32 tiles cover the result array, so after the run the array is `G` of the argument.
-/
import proofs.«165633_j57638461112506_2_alg».proof.Proof.Spec
import proofs.«165633_j57638461112506_2_alg».proof.Proof.KernelIdealFrame
import proofs.«165633_j57638461112506_2_alg».proof.Proof.KernelIdealPayload
import Idealize.ShloMosaic.Lib.StableHlo.Run

noncomputable section

namespace Cert.KernelIdeal.HandValue

open Cert.KernelIdeal Cert.KernelIdeal.Gen Cert.KernelIdeal.Hand Cert.CosSim
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The reciprocal norms the host computes -/

/-- The reciprocal column norms as the host operations compute them from the argument. -/
def rnorm (x : FVec Ideal S4x64x4096 .f32) : FVec Ideal S4x4096 .f32 :=
  Host.rsqrt (F := Ideal) (Host.reduceAdd (F := Ideal) (mulf x x) (constant (F := Ideal) S_ .f32 0x00000000#32)
    reducesTo_S4x64x4096_S4x4096_d1 h_S_)

/-- At (b, n): the reciprocal square root of the squared norm of column n of batch b. -/
theorem rnorm_apply (x : FVec Ideal S4x64x4096 .f32) (b : Fin 4) (n : Fin 4096) :
    rnorm x (ix2 b n) = Ideal.rsqrt (ssq x b n) := by
  unfold rnorm
  show FloatOps.hostUnary .rsqrt _ = _
  rw [Ideal.hostUnary_rsqrt_def]
  refine congrArg Ideal.rsqrt ?_
  have hy : ∀ i, mulf x x i = x i * x i := fun _ => rfl
  generalize mulf x x = y0 at hy ⊢
  simp only [Host.reduceAdd, Ideal.hostReduceAdd_def]
  rw [Ideal.hostReduceAdd_single reducesTo_S4x64x4096_S4x4096_d1 (by decide), constant_apply,
    Ideal.ofBits_zero_f32, zero_add]
  unfold ssq
  refine Finset.sum_congr rfl fun k _ => ?_
  rw [← hy]
  exact congrArg y0 (funext fun a => Fin.ext (by match a with | ⟨0, _⟩ => rfl | ⟨1, _⟩ => rfl | ⟨2, _⟩ => rfl))

/-- At region entry the column array is the reciprocal norms laid along the second axis, -/
theorem V_col (c : Dev nD) : (V m c main_v3 : S4x4096x1.Idx → EReal)
    = broadcastInDim S4x4096x1 ![0, 1] bcast_S4x4096_S4x4096x1_0_1 (rnorm (m ((c : Thread nD τ).loc main_arg0))) := by
  dsimp only [V, hostOps0]; after_results; rfl

/-- and the row array the same laid along the third. -/
theorem V_row (c : Dev nD) : (V m c main_v4 : S4x1x4096.Idx → EReal)
    = broadcastInDim S4x1x4096 ![0, 2] bcast_S4x4096_S4x1x4096_0_2 (rnorm (m ((c : Thread nD τ).loc main_arg0))) := by
  dsimp only [V, hostOps0]; after_results; rfl

theorem col_apply (c : Dev nD) (b : Fin 4) (i : Fin 4096) :
    (V m c main_v3 : S4x4096x1.Idx → EReal) (ix3 b i (0 : Fin 1)) = Ideal.rsqrt (ssq (m ((c : Thread nD τ).loc main_arg0)) b i) := by
  rw [V_col]
  refine (broadcastInDim_apply _ bcast_S4x4096_S4x4096x1_0_1 _ (ix3 b i (0 : Fin 1)) (ix2 b i) (fun a => match a with
    | ⟨0, _⟩ => by show b.val = if (4 : Nat) = 1 then 0 else b.val; rw [if_neg (by decide)]
    | ⟨1, _⟩ => by show i.val = if (4096 : Nat) = 1 then 0 else i.val; rw [if_neg (by decide)])).trans (rnorm_apply _ b i)

theorem row_apply (c : Dev nD) (b : Fin 4) (j : Fin 4096) :
    (V m c main_v4 : S4x1x4096.Idx → EReal) (ix3 b (0 : Fin 1) j) = Ideal.rsqrt (ssq (m ((c : Thread nD τ).loc main_arg0)) b j) := by
  rw [V_row]
  refine (broadcastInDim_apply _ bcast_S4x4096_S4x1x4096_0_2 _ (ix3 b (0 : Fin 1) j) (ix2 b j) (fun a => match a with
    | ⟨0, _⟩ => by show b.val = if (4 : Nat) = 1 then 0 else b.val; rw [if_neg (by decide)]
    | ⟨1, _⟩ => by show j.val = if (4096 : Nat) = 1 then 0 else j.val; rw [if_neg (by decide)])).trans (rnorm_apply _ b j)

/-! ## What a grid point writes back -/

theorem hz3 : (![0, 0, 0] : Fin 3 → Nat) = fun _ => 0 := funext fun a => by fin_cases a <;> rfl

/-- The windows' block indices at a grid point, decided over the 32 points: the two argument tiles and the two pieces
    of reciprocal norms sit where the output tile's batch, row tile and column tile put them. -/
theorem idx_facts : ∀ t : Fin cfg0.N,
    win0_0.index t (0 : Fin 3) = win0_4.index t (0 : Fin 3) ∧ win0_0.index t (1 : Fin 3) = 0 ∧ win0_0.index t (2 : Fin 3) = win0_4.index t (1 : Fin 3)
    ∧ win0_1.index t (0 : Fin 3) = win0_4.index t (0 : Fin 3) ∧ win0_1.index t (1 : Fin 3) = 0 ∧ win0_1.index t (2 : Fin 3) = win0_4.index t (2 : Fin 3)
    ∧ win0_2.index t (0 : Fin 3) = win0_4.index t (0 : Fin 3) ∧ win0_2.index t (1 : Fin 3) = win0_4.index t (1 : Fin 3) ∧ win0_2.index t (2 : Fin 3) = 0
    ∧ win0_3.index t (0 : Fin 3) = win0_4.index t (0 : Fin 3) ∧ win0_3.index t (1 : Fin 3) = 0 ∧ win0_3.index t (2 : Fin 3) = win0_4.index t (2 : Fin 3)
    ∧ win0_4.index t (0 : Fin 3) ≤ 3 ∧ win0_4.index t (1 : Fin 3) ≤ 1 ∧ win0_4.index t (2 : Fin 3) ≤ 3 :=
  (by decide +kernel : ∀ t : Fin grid0.N, _)

/-- Every (batch, row tile, column tile) is some grid point's. -/
theorem idx_onto : ∀ (q0 : Fin 4) (q1 : Fin 2) (q2 : Fin 4), ∃ t : Fin cfg0.N, win0_4.index t = ![q0.val, q1.val, q2.val] :=
  (by decide +kernel : ∀ (q0 : Fin 4) (q1 : Fin 2) (q2 : Fin 4), ∃ t : Fin grid0.N, win0_4.index t = ![q0.val, q1.val, q2.val])

/-- The value stored at (0, p, q) at a grid point whose output tile starts at (B, I − p, J − q): the entry (B, I, J) of
    `G`.  Stated over the four tiles as variables, with what each holds at the entries the value reads. -/
theorem pay_eq_G (x : SX.Idx → EReal) (a : Vec Ideal S1x64x2048 .f32) (b : Vec Ideal S1x64x1024 .f32) (u : Vec Ideal S1x2048x1 .f32) (v : Vec Ideal S1x1x1024 .f32)
    (z : Fin 1) (p : Fin 2048) (q : Fin 1024) (B : Fin 4) (I J : Fin 4096)
    (ha : ∀ k : Fin 64, a (ix3 (0 : Fin 1) k p) = x (ix3 B k I)) (hb : ∀ k : Fin 64, b (ix3 (0 : Fin 1) k q) = x (ix3 B k J))
    (hu : u (ix3 (0 : Fin 1) p (0 : Fin 1)) = Ideal.rsqrt (ssq x B I)) (hv : v (ix3 (0 : Fin 1) (0 : Fin 1) q) = Ideal.rsqrt (ssq x B J)) :
    k0_pay1 (F := Ideal) a b u v (ix3 z p q) = G x (ix3 B I J) := by
  rw [pay_apply, G_apply, hu, hv]
  unfold cosAt dotc
  refine congrArg₂ (· * ·) (congrArg₂ (· * ·) (Finset.sum_congr rfl fun k _ => ?_) rfl) rfl
  rw [ha, hb]

set_option backward.isDefEq.respectTransparency.types false in
/-- What grid point `t` writes back is the tile of `G` of the argument that the output window places there. -/
theorem flushed4_eq (c : Dev nD) (t : Fin cfg0.N) :
    (dats m 0 c).flushed 4 t = ((cfg0.win 4).blk t).view.read (Elt Ideal) (G (m ((c : Thread nD τ).loc main_arg0))) := by
  show (cfg0.win 4).cut (grid0.coords t) ((dats m 0 c).after 4 t) = _
  rw [after4]
  unfold out4
  rw [View.canon_unit_zero hz3]
  simp only [View.ld_unit_zero (S := S1x64x2048) hz3, View.ld_unit_zero (S := S1x64x1024) hz3,
    View.ld_unit_zero (S := S1x2048x1) hz3, View.ld_unit_zero (S := S1x1x1024) hz3]
  obtain ⟨e00, e01, e02, e10, e11, e12, e20, e21, e22, e30, e31, e32, b0, b1, b2⟩ := idx_facts t
  funext y
  obtain ⟨z, p, q, rfl⟩ : ∃ (z : Fin 1) (p : Fin 2048) (q : Fin 1024), y = ix3 z p q := ⟨y 0, y 1, y 2, eq_ix3 y⟩
  have hz : z.val = 0 := by omega
  have hp := p.isLt
  have hq := q.isLt
  -- the entry of the result array this block entry is placed at
  obtain ⟨B, I, J, ho, hB, hI, hJ⟩ : ∃ (B : Fin 4) (I J : Fin 4096), ((cfg0.win 4).blk t).view.emb (ix3 z p q) = ix3 B I J
      ∧ B.val = win0_4.index t (0 : Fin 3) * 1 + 1 * z.val ∧ I.val = win0_4.index t (1 : Fin 3) * 2048 + 1 * p.val
      ∧ J.val = win0_4.index t (2 : Fin 3) * 1024 + 1 * q.val :=
    ⟨(((cfg0.win 4).blk t).view.emb (ix3 z p q)) 0, (((cfg0.win 4).blk t).view.emb (ix3 z p q)) 1, (((cfg0.win 4).blk t).view.emb (ix3 z p q)) 2,
      eq_ix3 _, rfl, rfl, rfl⟩
  show k0_pay1 (F := Ideal) (iblk m c 0 t) (iblk m c 1 t) (iblk m c 2 t) (iblk m c 3 t) (ix3 z p q)
    = G (m ((c : Thread nD τ).loc main_arg0)) (((cfg0.win 4).blk t).view.emb (ix3 z p q))
  rw [ho]
  refine pay_eq_G (m ((c : Thread nD τ).loc main_arg0)) (iblk m c 0 t) (iblk m c 1 t) (iblk m c 2 t) (iblk m c 3 t) z p q B I J ?_ ?_ ?_ ?_
  · intro k
    have hk := k.isLt
    show V m c main_arg0 (((cfg0.win 0).blk t).view.emb (ix3 (0 : Fin 1) k p)) = _
    rw [V_main_arg0]
    refine congrArg _ (funext fun ax => Fin.ext ?_)
    match ax with
    | ⟨0, _⟩ => show win0_0.index t (0 : Fin 3) * 1 + 1 * 0 = B.val; omega
    | ⟨1, _⟩ => show win0_0.index t (1 : Fin 3) * 64 + 1 * k.val = k.val; omega
    | ⟨2, _⟩ => show win0_0.index t (2 : Fin 3) * 2048 + 1 * p.val = I.val; omega
  · intro k
    have hk := k.isLt
    show V m c main_arg0 (((cfg0.win 1).blk t).view.emb (ix3 (0 : Fin 1) k q)) = _
    rw [V_main_arg0]
    refine congrArg _ (funext fun ax => Fin.ext ?_)
    match ax with
    | ⟨0, _⟩ => show win0_1.index t (0 : Fin 3) * 1 + 1 * 0 = B.val; omega
    | ⟨1, _⟩ => show win0_1.index t (1 : Fin 3) * 64 + 1 * k.val = k.val; omega
    | ⟨2, _⟩ => show win0_1.index t (2 : Fin 3) * 1024 + 1 * q.val = J.val; omega
  · show (V m c main_v3 : S4x4096x1.Idx → EReal) (((cfg0.win 2).blk t).view.emb (ix3 (0 : Fin 1) p (0 : Fin 1))) = _
    rw [← col_apply m c B I]
    refine congrArg _ (funext fun ax => Fin.ext ?_)
    match ax with
    | ⟨0, _⟩ => show win0_2.index t (0 : Fin 3) * 1 + 1 * 0 = B.val; omega
    | ⟨1, _⟩ => show win0_2.index t (1 : Fin 3) * 2048 + 1 * p.val = I.val; omega
    | ⟨2, _⟩ => show win0_2.index t (2 : Fin 3) * 1 + 1 * 0 = 0; omega
  · show (V m c main_v4 : S4x1x4096.Idx → EReal) (((cfg0.win 3).blk t).view.emb (ix3 (0 : Fin 1) (0 : Fin 1) q)) = _
    rw [← row_apply m c B J]
    refine congrArg _ (funext fun ax => Fin.ext ?_)
    match ax with
    | ⟨0, _⟩ => show win0_3.index t (0 : Fin 3) * 1 + 1 * 0 = B.val; omega
    | ⟨1, _⟩ => show win0_3.index t (1 : Fin 3) * 1 + 1 * 0 = 0; omega
    | ⟨2, _⟩ => show win0_3.index t (2 : Fin 3) * 1024 + 1 * q.val = J.val; omega

/-! ## The tiles cover the result array -/

/-- An index of the result array is in point `t`'s tile iff each coordinate is in the tile's range on its axis. -/
theorem mem_blk4 (t : Fin cfg0.N) (i : S4x4096x4096.Idx) :
    i ∈ ((cfg0.win 4).blk t).view.set ↔ ∀ a : Fin 3, win0_4.index t a * S1x2048x1024.size a ≤ (i a).val ∧ (i a).val < win0_4.index t a * S1x2048x1024.size a + S1x2048x1024.size a := by
  show i ∈ ((View.whole main_v5).slice (win0_4.rect t)).set ↔ _
  rw [View.set_slice_whole, Rect.mem_set_unit]
  exact Iff.rfl

/-- Every index of the result array is in the tile of the point with its batch, its row tile and its column tile. -/
theorem cover4 (i : S4x4096x4096.Idx) : ∃ t : Fin cfg0.N, (cfg0.win 4).flush t = true ∧ i ∈ ((cfg0.win 4).blk t).view.set := by
  have hi0 : (i 0).val < 4 := (i 0).isLt
  have hi1 : (i 1).val < 4096 := (i 1).isLt
  have hi2 : (i 2).val < 4096 := (i 2).isLt
  obtain ⟨t, ht⟩ := idx_onto ⟨(i 0).val, hi0⟩ ⟨(i 1).val / 2048, by omega⟩ ⟨(i 2).val / 1024, by omega⟩
  have q0 : win0_4.index t (0 : Fin 3) = (i 0).val := congrFun ht 0
  have q1 : win0_4.index t (1 : Fin 3) = (i 1).val / 2048 := congrFun ht 1
  have q2 : win0_4.index t (2 : Fin 3) = (i 2).val / 1024 := congrFun ht 2
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 2048 ≤ (i 1).val ∧ (i 1).val < win0_4.index t (1 : Fin 3) * 2048 + 2048; omega
  | ⟨2, _⟩ => show win0_4.index t (2 : Fin 3) * 1024 ≤ (i 2).val ∧ (i 2).val < win0_4.index t (2 : Fin 3) * 1024 + 1024; omega

/-! ## The result array after the run -/

/-- After every write-back the result array is `G` of the argument. -/
theorem final4 (c : Dev nD) : (dats m 0 c).arrAt 4 cfg0.N = G (m ((c : Thread nD τ).loc main_arg0)) :=
  (dats m 0 c).arrAt_eq_of_cover 4 (G (m ((c : Thread nD τ).loc main_arg0))) (fun t _ => flushed4_eq m c t) cover4

/-- At the ideal instance, from any memory with zero counters: every weakly fair execution of the program terminates
    without a fault, with the result array at `G` of the argument and the argument unchanged. -/
theorem run : θ_run defs (onTc (τ := τ) (main (F := Ideal))) ⟨m, fun _ => 0, ρ⟩ fun r => ∀ c : Dev nD,
      r.2.mem ((c.tc : Thread nD τ).loc main_v5) = G (m ((c.tc : Thread nD τ).loc main_arg0))
      ∧ r.2.mem ((c.tc : Thread nD τ).loc main_arg0) = m ((c.tc : Thread nD τ).loc main_arg0) :=
  (θ_run defs _ _).mono (fun r h c => ⟨(h c 4).trans (final4 m c), (h c 0).trans (final_arg0 m c)⟩) (run_main m ρ)

end Cert.KernelIdeal.HandValue

end
-- ==== Proof.Algebra.lean ====
/-
  The law joining the two arrangements of the cosine similarity, over the extended reals.

  One side divides the Gram entry by the product of the two column norms,
      dotc / (sqrt (ssq_i) * sqrt (ssq_j)),
  the other multiplies it by the two reciprocal norms,
      dotc * rsqrt (ssq_i) * rsqrt (ssq_j).
  On the extended reals the two differ at the corners (a zero or infinite norm, an infinite Gram entry), so the law is
  stated where it holds: every entry of the argument is a real number, and every squared column norm is positive.

  Then every sum of products of entries is a real number (`finite_ssq`, `finite_dotc`): the coercion of the reals
  commutes with finite sums and with products.  For reals e and 0 < s, t the law is the identity
      e / (sqrt s * sqrt t) = e * (sqrt s)⁻¹ * (sqrt t)⁻¹,
  the square roots being positive, hence nonzero (`div_sqrt_eq`); `quotient_eq_cosAt` assembles the three.
-/
import proofs.«165633_j57638461112506_2_alg».proof.Proof.Spec

noncomputable section

namespace Cert.CosSim

open Idealize.ShloMosaic Idealize.ShloMosaic.ValueIdx

/-- The coercion of the reals into the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- An array whose entries are all neither infinity is the coercion of a real array. -/
theorem exists_real (x : SX.Idx → EReal) (hfin : ∀ i, x i ≠ ⊤ ∧ x i ≠ ⊥) :
    ∃ f : SX.Idx → ℝ, ∀ i, x i = (f i : EReal) :=
  ⟨fun i => (x i).toReal, fun i => (EReal.coe_toReal (hfin i).1 (hfin i).2).symm⟩

/-- A sum over the channels of products of two entries of a finite array is a real number. -/
theorem sum_mul_finite (x : SX.Idx → EReal) (hfin : ∀ i, x i ≠ ⊤ ∧ x i ≠ ⊥) (p q : Fin 64 → SX.Idx) :
    ∃ r : ℝ, ∑ c : Fin 64, x (p c) * x (q c) = (r : EReal) := by
  obtain ⟨f, hf⟩ := exists_real x hfin
  refine ⟨∑ c : Fin 64, f (p c) * f (q c), ?_⟩
  rw [coe_sum]
  refine Finset.sum_congr rfl fun c _ => ?_
  rw [hf (p c), hf (q c), EReal.coe_mul]

/-- The squared norm of a column of a finite array is a real number. -/
theorem finite_ssq (x : SX.Idx → EReal) (hfin : ∀ i, x i ≠ ⊤ ∧ x i ≠ ⊥) (b : Fin 4) (n : Fin 4096) :
    ∃ r : ℝ, ssq x b n = (r : EReal) :=
  sum_mul_finite x hfin (fun c => ix3 b c n) (fun c => ix3 b c n)

/-- The Gram entry of two columns of a finite array is a real number. -/
theorem finite_dotc (x : SX.Idx → EReal) (hfin : ∀ i, x i ≠ ⊤ ∧ x i ≠ ⊥) (b : Fin 4) (i j : Fin 4096) :
    ∃ r : ℝ, dotc x b i j = (r : EReal) :=
  sum_mul_finite x hfin (fun c => ix3 b c i) (fun c => ix3 b c j)

/-- For a real `e` and positive reals `si`, `sj`: dividing by the product of the square roots is multiplying by the two
    reciprocal square roots.  Both square roots are positive reals, so neither side meets a corner of the extended
    reals, and the equation is `e * (a * b)⁻¹ = e * a⁻¹ * b⁻¹` in the reals. -/
theorem div_sqrt_eq (e si sj : ℝ) (hi : 0 < si) (hj : 0 < sj) :
    Ideal.div (e : EReal) (Ideal.sqrt (si : EReal) * Ideal.sqrt (sj : EReal))
      = (e : EReal) * Ideal.rsqrt (si : EReal) * Ideal.rsqrt (sj : EReal) := by
  have hsi : 0 < Real.sqrt si := Real.sqrt_pos.mpr hi
  have hsj : 0 < Real.sqrt sj := Real.sqrt_pos.mpr hj
  simp only [Ideal.sqrt_coe, Ideal.rsqrt_coe, if_neg (not_lt.mpr hi.le), if_neg (not_lt.mpr hj.le),
    if_neg hi.ne', if_neg hj.ne']
  rw [← EReal.coe_mul, Ideal.div_coe (mul_pos hsi hsj).ne', ← EReal.coe_mul, ← EReal.coe_mul, ← EReal.coe_mul]
  congr 1
  rw [one_div, mul_inv, mul_assoc]

/-- The quotient form equals the product form at every entry, for a finite array with positive squared column
    norms. -/
theorem quotient_eq_cosAt (x : SX.Idx → EReal) (hfin : ∀ i, x i ≠ ⊤ ∧ x i ≠ ⊥) (hpos : ∀ b n, 0 < ssq x b n)
    (b : Fin 4) (i j : Fin 4096) :
    Ideal.div (dotc x b i j) (Ideal.sqrt (ssq x b i) * Ideal.sqrt (ssq x b j)) = cosAt x b i j := by
  obtain ⟨e, he⟩ := finite_dotc x hfin b i j
  obtain ⟨si, hsi⟩ := finite_ssq x hfin b i
  obtain ⟨sj, hsj⟩ := finite_ssq x hfin b j
  have hi : 0 < si := by
    have h := hpos b i
    rw [hsi] at h
    exact EReal.coe_pos.mp h
  have hj : 0 < sj := by
    have h := hpos b j
    rw [hsj] at h
    exact EReal.coe_pos.mp h
  unfold cosAt
  rw [he, hsi, hsj]
  exact div_sqrt_eq e si sj hi hj

end Cert.CosSim

end
-- ==== Proof.RefValue.lean ====
/-
  The reference program's value is the array `G` of the specification, for a finite argument with positive squared
  column norms.

  The reference computes, stage by stage (the generated module reads each stage at an index):
    * the Gram array   `dot[b,i,j] = Σ_c x[b,c,i] · x[b,c,j]`                         — `dotc x b i j`;
    * the squared norms `s[b,n] = 0 + Σ_c x[b,c,n] · x[b,c,n]`                        — `ssq x b n`;
    * their square roots, once as a column [4,4096,1] and once as a row [4,1,4096], each broadcast to [4,4096,4096]:
      at (b,i,j) the column reads `sqrt s[b,i]` and the row reads `sqrt s[b,j]`;
    * the quotient `dot[b,i,j] / (sqrt s[b,i] · sqrt s[b,j])`.
  Each index function of a stage, at an index built from its coordinates, is again an index built from coordinates
  (three or two cases on the axis, each by computation).  The last step is the law `quotient_eq_cosAt`: the quotient
  by the product of the norms is the product with the two reciprocal norms.
-/
import proofs.«165633_j57638461112506_2_alg».proof.Proof.Algebra
import proofs.«165633_j57638461112506_2_alg».proof.Proof.Gen.ReferenceIdeal.Read

noncomputable section

namespace Cert.CosSim

open Idealize.ShloMosaic Idealize.ShloMosaic.ValueIdx Cert.ReferenceIdeal Cert.ReferenceIdeal.Read

/-! ### The stages' index functions at indices given by coordinates -/

/-- The Gram stage's left operand index at (b,i,j) and channel k is (b,k,i). -/
theorem lidx_v0_ix (b : Fin 4) (i j : Fin 4096) (k : Fin 64) : lidx_main_v0 (ix3 b i j) k = ix3 b k i :=
  funext fun a => Fin.ext (by match a with | ⟨0, _⟩ => rfl | ⟨1, _⟩ => rfl | ⟨2, _⟩ => rfl)

/-- The Gram stage's right operand index at (b,i,j) and channel k is (b,k,j). -/
theorem ridx_v0_ix (b : Fin 4) (i j : Fin 4096) (k : Fin 64) : ridx_main_v0 (ix3 b i j) k = ix3 b k j :=
  funext fun a => Fin.ext (by match a with | ⟨0, _⟩ => rfl | ⟨1, _⟩ => rfl | ⟨2, _⟩ => rfl)

/-- The channel sum's operand index at (b,n) and channel k is (b,k,n). -/
theorem idx_v2_ix (b : Fin 4) (n : Fin 4096) (k : Fin 64) : idx_main_v2 (ix2 b n) k = ix3 b k n :=
  funext fun a => Fin.ext (by match a with | ⟨0, _⟩ => rfl | ⟨1, _⟩ => rfl | ⟨2, _⟩ => rfl)

/-- The column broadcast [4,4096] → [4,4096,1] → [4,4096,4096] reads (b,i) at (b,i,j). -/
theorem idx_v4_v6_ix (b : Fin 4) (i j : Fin 4096) : idx_main_v4 (idx_main_v6 (ix3 b i j)) = ix2 b i :=
  funext fun a => Fin.ext (by match a with | ⟨0, _⟩ => rfl | ⟨1, _⟩ => rfl)

/-- The row broadcast [4,4096] → [4,1,4096] → [4,4096,4096] reads (b,j) at (b,i,j). -/
theorem idx_v5_v7_ix (b : Fin 4) (i j : Fin 4096) : idx_main_v5 (idx_main_v7 (ix3 b i j)) = ix2 b j :=
  funext fun a => Fin.ext (by match a with | ⟨0, _⟩ => rfl | ⟨1, _⟩ => rfl)

/-! ### The stages' values -/

variable (x : (⟨Cert.ReferenceIdeal.S4x64x4096, .f32⟩ : BufTy).Contents (Elt Ideal))

/-- The Gram stage at (b,i,j) is the Gram entry. -/
theorem ref_v0 (b : Fin 4) (i j : Fin 4096) : val_main_v0 (F := Ideal) x (ix3 b i j) = dotc x b i j := by
  rw [val_main_v0_apply]
  unfold dotc
  refine Finset.sum_congr rfl fun k _ => ?_
  rw [lidx_v0_ix, ridx_v0_ix]

/-- The channel sum of the squares at (b,n), from the initial value zero, is the squared column norm. -/
theorem ref_v2 (b : Fin 4) (n : Fin 4096) : val_main_v2 (F := Ideal) x (ix2 b n) = ssq x b n := by
  rw [val_main_v2_apply, val_main_cst_apply, Ideal.ofBits_def, Ideal.ofBits_zero_f32, zero_add]
  unfold ssq
  refine Finset.sum_congr rfl fun k _ => ?_
  rw [val_main_v1_apply, idx_v2_ix, Ideal.mulf_def]

/-- The square-root stage at (b,n) is the column norm. -/
theorem ref_v3 (b : Fin 4) (n : Fin 4096) : val_main_v3 (F := Ideal) x (ix2 b n) = Ideal.sqrt (ssq x b n) := by
  rw [val_main_v3_apply, ref_v2, Ideal.hostUnary_sqrt_def]

/-- The column of norms broadcast over the last axis reads the norm of column i at (b,i,j). -/
theorem ref_v6 (b : Fin 4) (i j : Fin 4096) : val_main_v6 (F := Ideal) x (ix3 b i j) = Ideal.sqrt (ssq x b i) := by
  rw [val_main_v6_apply, val_main_v4_apply, idx_v4_v6_ix, ref_v3]

/-- The row of norms broadcast over the middle axis reads the norm of column j at (b,i,j). -/
theorem ref_v7 (b : Fin 4) (i j : Fin 4096) : val_main_v7 (F := Ideal) x (ix3 b i j) = Ideal.sqrt (ssq x b j) := by
  rw [val_main_v7_apply, val_main_v5_apply, idx_v5_v7_ix, ref_v3]

/-- The reference's last stage is `G`: at (b,i,j) it is the Gram entry divided by the product of the two column norms,
    which for a finite argument with positive squared norms is the Gram entry times the two reciprocal norms. -/
theorem ref_eq_G [Cert.ReferenceIdeal.Facts] (x : (⟨Cert.ReferenceIdeal.S4x64x4096, .f32⟩ : BufTy).Contents (Elt Ideal))
    (hfin : ∀ i, x i ≠ ⊤ ∧ x i ≠ ⊥) (hpos : ∀ b n, 0 < ssq x b n) :
    Cert.ReferenceIdeal.Read.val_main_v9 (F := Ideal) x = G x := by
  funext o
  obtain ⟨b, i, j, rfl⟩ : ∃ (b : Fin 4) (i j : Fin 4096), o = ix3 b i j := ⟨o 0, o 1, o 2, eq_ix3 o⟩
  rw [G_apply, val_main_v9_apply, val_main_v8_apply, ref_v0, ref_v6, ref_v7, Ideal.mulf_def, Ideal.hostDivf_def]
  exact quotient_eq_cosAt x hfin hpos b i j

end Cert.CosSim

end
-- ==== Proof.PreDecode.lean ====
/-
  What the precondition says of the argument.

  The printed precondition is the conjunction of two `all` reductions over the argument `x` of shape [4, 64, 4096]:
    * every entry has `|x| < +∞`, the comparison taken against the f32 word of +∞;
    * every channel sum of squares `0 + Σ_c x[b,c,n] · x[b,c,n]` is greater than the f32 zero.
  Over the extended reals `|a| = max a (-a)`, the word of +∞ denotes `⊤` and the zero word denotes `0`.  So the first
  conjunct says that every entry is neither `⊤` nor `⊥` (`max a (-a) < ⊤` bounds both `a` and `-a` away from `⊤`), and the
  second that every squared column norm `ssq x b n` is positive.
-/
import proofs.«165633_j57638461112506_2_alg».proof.Proof.Spec
import proofs.«165633_j57638461112506_2_alg».proof.Pre_finite_inputs
import Idealize.ShloMosaic.Lib.ReduceAll
import Idealize.ShloMosaic.Lib.IdealHost
import Idealize.ShloMosaic.PureOps.Ideal.Laws

noncomputable section

namespace Cert.CosSim

open Idealize.ShloMosaic Idealize.ShloMosaic.ValueIdx

/-- A one-bit word made from a Boolean is 1 exactly when the Boolean is true. -/
theorem ofBool_eq_one_iff {c : Bool} : BitVec.ofBool c = 1#1 ↔ c = true := by cases c <;> decide

/-- The f32 word of +∞ denotes the top of the extended reals. -/
theorem ofBits_inf_f32 : Ideal.ofBits .f32 0x7F800000#32 = ⊤ := by simp [Ideal.ofBits, Ideal.ieee]

/-- An extended real whose absolute value `max a (-a)` is below `⊤` is neither infinity. -/
theorem finite_of_abs_lt_top (a : EReal) (h : max a (-a) < ⊤) : a ≠ ⊤ ∧ a ≠ ⊥ := by
  refine ⟨fun e => ?_, fun e => ?_⟩
  · rw [e] at h
    exact absurd h (not_lt.mpr (le_max_left _ _))
  · rw [e, EReal.neg_bot] at h
    exact absurd h (not_lt.mpr (le_max_right _ _))

variable [Cert.Pre_finite_inputs.Facts]

open Cert.Pre_finite_inputs in
/-- The host's channel sum of the squares, from the zero word, is the squared column norm at every (b,n). -/
theorem reduce_sq_apply (x : FVec Ideal Cert.Pre_finite_inputs.S4x64x4096 .f32) (b : Fin 4) (n : Fin 4096) :
    Host.reduceAdd (F := Ideal) (mulf x x) (constant (F := Ideal) S_ .f32 0x00000000#32)
        Facts.reducesTo_S4x64x4096_S4x4096_d1 Facts.h_S_ (ix2 b n) = ssq x b n := by
  have hy : ∀ i, mulf x x i = x i * x i := fun _ => rfl
  generalize mulf x x = y0 at hy ⊢
  simp only [Host.reduceAdd, Ideal.hostReduceAdd_def]
  rw [Ideal.hostReduceAdd_single Facts.reducesTo_S4x64x4096_S4x4096_d1 (by decide), constant_apply,
    Ideal.ofBits_zero_f32, zero_add]
  unfold ssq
  refine Finset.sum_congr rfl fun k _ => ?_
  rw [← hy]
  exact congrArg y0 (funext fun a => Fin.ext (by match a with | ⟨0, _⟩ => rfl | ⟨1, _⟩ => rfl | ⟨2, _⟩ => rfl))

/-- The precondition, decoded: every entry of the argument is a real number, and every squared column norm is
    positive. -/
theorem pre_decode (x : FVec Ideal Cert.Pre_finite_inputs.S4x64x4096 .f32)
    (h : Cert.Pre_finite_inputs.fn (F := Ideal) x = fun _ => 1#1) :
    (∀ i, x i ≠ ⊤ ∧ x i ≠ ⊥) ∧ (∀ b n, 0 < ssq x b n) := by
  -- the rank-0 shape has one index, so each `all` reduction covers every index of its operand
  haveI : Subsingleton Cert.Pre_finite_inputs.S_.Idx := ⟨fun _ _ => funext fun d => d.elim0⟩
  have h0 := congrFun h ix0
  dsimp only [Cert.Pre_finite_inputs.fn] at h0
  obtain ⟨h1, h2⟩ := IntOp.andi_eq_one.1 h0
  refine ⟨fun i => ?_, fun b n => ?_⟩
  · have he := Host.reduce_andi_all _ _ _ _ _ h1 i
    rw [cmpf_apply, broadcastInDim_scalar_apply, constant_apply, ofBits_inf_f32, Ideal.cmpf_def] at he
    have hlt : max (x i) (-(x i)) < ⊤ := of_decide_eq_true (ofBool_eq_one_iff.1 he)
    exact finite_of_abs_lt_top _ hlt
  · have he := Host.reduce_andi_all _ _ _ _ _ h2 (ix2 b n)
    rw [cmpf_apply, broadcastInDim_scalar_apply, constant_apply, Ideal.ofBits_zero_f32, reduce_sq_apply,
      Ideal.cmpf_def] at he
    exact of_decide_eq_true (ofBool_eq_one_iff.1 he)

end Cert.CosSim

end
-- ==== Proof.lean ====
/-
  The certificate of the cosine-similarity kernel against its reference.

  For x : [4, 64, 4096] the kernel computes  out[b,i,j] = ((Σ_c x[b,c,i]·x[b,c,j]) · rsqrt s[b,i]) · rsqrt s[b,j]  with
  s[b,n] = Σ_c x[b,c,n]², the reciprocal norms computed once on the host and the Gram tiles on a 4 × 2 × 4 grid; the
  reference computes  (Σ_c x[b,c,i]·x[b,c,j]) / (√s[b,i] · √s[b,j]).  Over the extended reals the two agree exactly where
  every entry of x is finite and every squared column norm is positive: then both are the real quotient.  At a zero column
  the reference divides zero by zero, so positivity of the squared norms is part of the precondition.

  The three frames: the two readings of the kernel program run to the end and leave the argument unchanged (the launch
  with two windows on one array, each holding half of it); the reference's run is a straight line of host operations.
  The idealization rewrote nothing, so there is nothing to preserve.  The value claim joins the kernel's result array,
  which is the array `G` of the specification whatever the argument, with the reference's, which is `G` under the
  precondition.
-/
import proofs.«165633_j57638461112506_2_alg».proof.Defs
import proofs.«165633_j57638461112506_2_alg».proof.Proof.Gen.Kernel
import proofs.«165633_j57638461112506_2_alg».proof.Proof.Gen.KernelIdeal
import proofs.«165633_j57638461112506_2_alg».proof.Proof.Gen.ReferenceIdeal
import proofs.«165633_j57638461112506_2_alg».proof.Proof.Gen.ReferenceIdeal.Run
import proofs.«165633_j57638461112506_2_alg».proof.Proof.Gen.ReferenceIdeal.Read
import proofs.«165633_j57638461112506_2_alg».proof.Proof.Gen.Pre_finite_inputs
import proofs.«165633_j57638461112506_2_alg».proof.Proof.KernelFrame
import proofs.«165633_j57638461112506_2_alg».proof.Proof.KernelIdealFrame
import proofs.«165633_j57638461112506_2_alg».proof.Proof.KernelIdealValue
import proofs.«165633_j57638461112506_2_alg».proof.Proof.RefValue
import proofs.«165633_j57638461112506_2_alg».proof.Proof.PreDecode
import Idealize.ShloMosaic.Adequacy
import Idealize.ShloMosaic.Init

noncomputable section

namespace Cert.Proof

open Idealize.ShloMosaic Idealize.SL.Sem

/-- The kernel program as printed runs to the end and leaves its argument unchanged. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the result array at `G` of the argument: the kernel for every argument, the
    reference for a finite argument with positive squared column norms, which is what the precondition says. -/
theorem algebraic : Cert.algebraic_KernelIdeal_ReferenceIdeal := by
  intro m ρ m' ρ' hpre hagree
  refine ⟨fun c => Cert.CosSim.G (m ((c.tc : Thread Cert.KernelIdeal.nD Cert.KernelIdeal.τ).loc Cert.KernelIdeal.main_arg0)),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [hagree c]
  obtain ⟨hfin, hpos⟩ := Cert.CosSim.pre_decode _ (hpre c)
  exact (Cert.ReferenceIdeal.Read.val_main_v9_eq _).trans (Cert.CosSim.ref_eq_G _ hfin hpos)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
